-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x49152 : Shape := ⟨2, ![128, 49152]⟩
abbrev S_ : Shape := ⟨0, ![]⟩

class Facts : Prop where
  bcast_S_S128x49152 : S_.BroadcastsInDim S128x49152 (![] : Fin 0 → Fin S128x49152.rank)
  reducesTo_S128x49152_S_d0_1 : S128x49152.ReducesTo [0, 1] S_
  h_S_ : 0 < S_.numel

variable [Facts]

def fn {F : FTy → Type} [FloatOps F] (main_arg0 : FVec F S128x49152 .f32) : IVec S_ 1 :=
  let main_v0 : FVec F S128x49152 .f32 := Host.absf main_arg0
  let main_cst : FVec F S_ .f32 := constant S_ .f32 0x7F800000#32
  let main_v1 : FVec F S128x49152 .f32 := broadcastInDim S128x49152 ![] bcast_S_S128x49152 main_cst
  let main_v2 : IVec S128x49152 1 := cmpf .olt main_v0 main_v1
  let main_c : IVec S_ 1 := constantI S_ 1 1#1
  let main_v3 : IVec S_ 1 := (fun x v => Host.reduce IntOp.andi x v reducesTo_S128x49152_S_d0_1 h_S_) main_v2 main_c
  main_v3
-- ==== Kernel.lean ====
abbrev S128x49152 : Shape := ⟨2, ![128, 49152]⟩
abbrev S384x128x128 : Shape := ⟨3, ![384, 128, 128]⟩
abbrev S384x512x512 : Shape := ⟨3, ![384, 512, 512]⟩
abbrev S1x128x128 : Shape := ⟨3, ![1, 128, 128]⟩
abbrev S1x512x512 : Shape := ⟨3, ![1, 512, 512]⟩
abbrev S1x128x128x1 : Shape := ⟨4, ![1, 128, 128, 1]⟩
abbrev S1x128x128x4 : Shape := ⟨4, ![1, 128, 128, 4]⟩
abbrev S1x128x512 : Shape := ⟨3, ![1, 128, 512]⟩
abbrev S1x128x1x512 : Shape := ⟨4, ![1, 128, 1, 512]⟩
abbrev S1x128x4x512 : Shape := ⟨4, ![1, 128, 4, 512]⟩
abbrev S128x3x512x512 : Shape := ⟨4, ![128, 3, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S128x49152, .f32⟩
  | .hbm, ⟨1, _⟩ => ⟨S384x128x128, .f32⟩
  | .hbm, ⟨2, _⟩ => ⟨S384x512x512, .f32⟩
  | .hbm, ⟨3, _⟩ => ⟨S128x3x512x512, .f32⟩
  | .local _ .vmem, ⟨0, _⟩ => ⟨S1x128x128, .f32⟩
  | .local _ .vmem, ⟨1, _⟩ => ⟨S1x128x128, .f32⟩
  | .local _ .vmem, ⟨2, _⟩ => ⟨S1x512x512, .f32⟩
  | .local _ .vmem, ⟨3, _⟩ => ⟨S1x512x512, .f32⟩
  | _, _ => ⟨S128x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x49152_S384x128x128 : S128x49152.ShapeCasts S384x128x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  shapeCasts_S1x128x128_S1x128x128x1 : S1x128x128.ShapeCasts S1x128x128x1
  shapeCasts_S1x128x128x1_S1x128x128x1 : S1x128x128x1.ShapeCasts S1x128x128x1
  broadcasts_S1x128x128x1_S1x128x128x4 : S1x128x128x1.Broadcasts S1x128x128x4
  shapeCasts_S1x128x128x4_S1x128x512 : S1x128x128x4.ShapeCasts S1x128x512
  shapeCasts_S1x128x512_S1x128x1x512 : S1x128x512.ShapeCasts S1x128x1x512
  shapeCasts_S1x128x1x512_S1x128x1x512 : S1x128x1x512.ShapeCasts S1x128x1x512
  broadcasts_S1x128x1x512_S1x128x4x512 : S1x128x1x512.Broadcasts S1x128x4x512
  shapeCasts_S1x128x4x512_S1x512x512 : S1x128x4x512.ShapeCasts S1x512x512
  inb_S1x512x512_S1x512x512_0_0_0 : ∀ a, (![0, 0, 0] : Fin 3 → Nat) a + S1x512x512.size a ≤ S1x512x512.size a
  h_S1x512x512 : 0 < S1x512x512.numel
  shapeCasts_S384x512x512_S128x3x512x512 : S384x512x512.ShapeCasts S128x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S384x128x128.size a
  hwx0_0 : ∀ i : grid0.Coords, EltTy.bits .f32 = 32 ∨ (Rect.block (s := S384x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S384x512x512.size a
  hwx0_1 : ∀ i : grid0.Coords, EltTy.bits .f32 = 32 ∨ (Rect.block (s := S384x512x512) S1x512x512.size (cc0_transform_1 i) (hinb0_1 i)).WholeWords (EltTy.packing .f32)

variable [Facts₀]

abbrev win0_0 : Pipeline.Window sig grid0 :=
  Pipeline.Window.ofSpec (Memref.whole main_v0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x49152 : Shape := ⟨2, ![128, 49152]⟩
abbrev S128x3x128x128 : Shape := ⟨4, ![128, 3, 128, 128]⟩
abbrev S128x3x128x4x128 : Shape := ⟨5, ![128, 3, 128, 4, 128]⟩
abbrev S128x3x512x128 : Shape := ⟨4, ![128, 3, 512, 128]⟩
abbrev S128x3x512x128x4 : Shape := ⟨5, ![128, 3, 512, 128, 4]⟩
abbrev S128x3x512x512 : Shape := ⟨4, ![128, 3, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S128x49152, .f32⟩
  | .hbm, ⟨1, _⟩ => ⟨S128x3x128x128, .f32⟩
  | .hbm, ⟨2, _⟩ => ⟨S128x3x128x4x128, .f32⟩
  | .hbm, ⟨3, _⟩ => ⟨S128x3x512x128, .f32⟩
  | .hbm, ⟨4, _⟩ => ⟨S128x3x512x128x4, .f32⟩
  | .hbm, ⟨5, _⟩ => ⟨S128x3x512x512, .f32⟩
  | .hbm, ⟨6, _⟩ => ⟨S_, .f32⟩
  | .hbm, ⟨7, _⟩ => ⟨S128x3x512x512, .f32⟩
  | .hbm, ⟨8, _⟩ => ⟨S128x3x512x512, .f32⟩
  | _, _ => ⟨S128x49152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S128x49152_S128x3x128x128 : S128x49152.ShapeCasts S128x3x128x128
  bcast_S128x3x128x128_S128x3x128x4x128_0_1_2_4 : S128x3x128x128.BroadcastsInDim S128x3x128x4x128 (![0, 1, 2, 4] : Fin 4 → Fin S128x3x128x4x128.rank)
  shapeCasts_S128x3x128x4x128_S128x3x512x128 : S128x3x128x4x128.ShapeCasts S128x3x512x128
  bcast_S128x3x512x128_S128x3x512x128x4_0_1_2_3 : S128x3x512x128.BroadcastsInDim S128x3x512x128x4 (![0, 1, 2, 3] : Fin 4 → Fin S128x3x512x128x4.rank)
  shapeCasts_S128x3x512x128x4_S128x3x512x512 : S128x3x512x128x4.ShapeCasts S128x3x512x512
  bcast_S_S128x3x512x512 : S_.BroadcastsInDim S128x3x512x512 (![] : Fin 0 → Fin S128x3x512x512.rank)

variable [Facts₀]

class Facts : Prop extends Facts₀ where

variable [Facts]
-- ==== Proof.Upsample.lean ====
/-
  The mathematics of the certificate, with no program in sight.

  The input is a batch of 128 rows of 49152 numbers; row b is read as three 128 × 128 planes (plane c holds the
  entries c·16384 + h·128 + w).  The result is, for each plane, the 512 × 512 picture in which every coarse cell
  (h, w) fills the 4 × 4 square of fine cells (4h + r, 4w + s), r, s < 4, and every entry is multiplied by one
  fixed scale (the word 0x3E800000, a quarter).  So the result at (b, c, hh, ww) is

        z (b, c·16384 + (hh / 4)·128 + ww / 4) · quarter.

  Nothing here is arithmetic on the values: the only operation applied to a value is the one product with the
  scale, and it is the same product, applied to the same entry, however the planes are laid out.  The file states
  that function three ways — on a stack of n planes (`upStack`), which is what one grid point (n = 1) and the whole
  launch (n = 384 = 128 · 3) compute, and on the flat rows (`spread`) — and proves that regrouping the 128 · 3
  planes of the stack into (batch, channel) turns the one into the other (`regroup_upStack`).
-/
import Idealize.ShloMosaic.PureOps.Ideal
import Idealize.ShloMosaic.Lib.ValueIdx
import Idealize.ShloMosaic.Lib.Pipeline.Value

noncomputable section

namespace Cert.Upsample

open Idealize.ShloMosaic Idealize.ShloMosaic.ValueIdx

variable {F : FTy → Type} [FloatOps F]

/-- The scale every entry is multiplied by: the f32 word of 0.25. -/
abbrev quarter : F .f32 := FloatOps.ofBits .f32 0x3E800000#32

/-- The coarse cell a fine cell of a stack of `n` planes lies in: same plane, row `hh / 4`, column `ww / 4`. -/
def coarse (n : Nat) (i : (⟨3, ![n, 512, 512]⟩ : Shape).Idx) : (⟨3, ![n, 128, 128]⟩ : Shape).Idx :=
  ix3 (n0 := n) (n1 := 128) (n2 := 128) ⟨(i 0).val, (i 0).isLt⟩
    ⟨(i 1).val / 4, by have h : (i 1).val < 512 := (i 1).isLt; omega⟩
    ⟨(i 2).val / 4, by have h : (i 2).val < 512 := (i 2).isLt; omega⟩

/-- A stack of `n` planes of 128 × 128, each blown up to 512 × 512 cell by cell and scaled. -/
def upStack (n : Nat) (x : (⟨3, ![n, 128, 128]⟩ : Shape).Idx → F .f32) : (⟨3, ![n, 512, 512]⟩ : Shape).Idx → F .f32 :=
  fun i => FloatOps.mulf (x (coarse n i)) quarter

/-- Where in its flat row the entry behind result cell (b, c, hh, ww) sits: row `b`, position
    `c·16384 + (hh / 4)·128 + ww / 4`. -/
def origin (i : (⟨4, ![128, 3, 512, 512]⟩ : Shape).Idx) : (⟨2, ![128, 49152]⟩ : Shape).Idx :=
  ix2 (n0 := 128) (n1 := 49152) ⟨(i 0).val, (i 0).isLt⟩
    ⟨(i 1).val * 16384 + (i 2).val / 4 * 128 + (i 3).val / 4, by
      have h1 : (i 1).val < 3 := (i 1).isLt
      have h2 : (i 2).val < 512 := (i 2).isLt
      have h3 : (i 3).val < 512 := (i 3).isLt
      omega⟩

/-- THE RESULT as one function of the flat rows. -/
def spread (z : (⟨2, ![128, 49152]⟩ : Shape).Idx → F .f32) : (⟨4, ![128, 3, 512, 512]⟩ : Shape).Idx → F .f32 :=
  fun i => FloatOps.mulf (z (origin i)) quarter

/-- Reading the flat rows as 384 planes, blowing the stack up, and regrouping the 384 pictures as 128 × 3 is
    `spread`: plane `b·3 + c` of the stack is channel `c` of batch row `b`, and its entry (h, w) sits at
    `c·16384 + h·128 + w` of that row, because 49152 = 3 · 16384 and 16384 = 128 · 128. -/
theorem regroup_upStack (z : (⟨2, ![128, 49152]⟩ : Shape).Idx → F .f32)
    (hin : (⟨2, ![128, 49152]⟩ : Shape).ShapeCasts ⟨3, ![384, 128, 128]⟩)
    (hout : (⟨3, ![384, 512, 512]⟩ : Shape).ShapeCasts ⟨4, ![128, 3, 512, 512]⟩) :
    shapeCast ⟨4, ![128, 3, 512, 512]⟩ (upStack 384 (shapeCast ⟨3, ![384, 128, 128]⟩ z hin)) hout = spread z := by
  funext i
  have h0 : (i 0).val < 128 := (i 0).isLt
  have h1 : (i 1).val < 3 := (i 1).isLt
  have h2 : (i 2).val < 512 := (i 2).isLt
  have h3 : (i 3).val < 512 := (i 3).isLt
  -- the picture cell (b, c, hh, ww) is cell (hh, ww) of picture b·3 + c of the stack
  refine (shapeCast_apply _ hout i
    (ix3 (n0 := 384) (n1 := 512) (n2 := 512) ⟨(i 0).val * 3 + (i 1).val, by omega⟩ ⟨(i 2).val, h2⟩ ⟨(i 3).val, h3⟩) ?_).trans ?_
  · rewrite [Shape.rowMajor_val_three, Shape.rowMajor_val_four]
    show (((i 0).val * 3 + (i 1).val) * 512 + (i 2).val) * 512 + (i 3).val
      = (((i 0).val * 3 + (i 1).val) * 512 + (i 2).val) * 512 + (i 3).val
    rfl
  -- and the plane entry (b·3 + c, h, w) is entry c·16384 + h·128 + w of row b
  unfold upStack spread
  refine congrArg (fun v => FloatOps.mulf v quarter) ?_
  refine shapeCast_apply z hin _ (origin i) ?_
  rewrite [Shape.rowMajor_val_two, Shape.rowMajor_val_three]
  show (i 0).val * 49152 + ((i 1).val * 16384 + (i 2).val / 4 * 128 + (i 3).val / 4)
    = (((i 0).val * 3 + (i 1).val) * 128 + (i 2).val / 4) * 128 + (i 3).val / 4
  omega

end Cert.Upsample

end
-- ==== Proof.Payload.lean ====
/-
  What one grid point stores, as a function of the block it loads.

  The body takes its 1 × 128 × 128 block and, by reshapes and two broadcasts, builds the 1 × 512 × 512 block:
  a trailing unit axis is broadcast to 4 and folded into the columns (column ww comes from column ww / 4, copy
  ww % 4), then a unit axis after the rows is broadcast to 4 and folded into the rows (row hh comes from row
  hh / 4, copy hh % 4).  A reshape keeps the row-major position of an entry and a broadcast forgets the
  coordinate on the axis it stretches, so following an output cell (p, hh, ww) backwards through the eight
  layout steps ends at the loaded cell (p, hh / 4, ww / 4).  The last step multiplies by the scale.
-/
import proofs.«108321_j34308198761077_2_alg».proof.Proof.Gen.KernelIdeal.Skeleton
import proofs.«108321_j34308198761077_2_alg».proof.Proof.Upsample
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {α : Type}

/-- The eight layout steps of the body, read at an output cell: the loaded block at the coarse cell. Stated for
    any element type and any proofs of the shape relations. -/
theorem layout_apply (x : S1x128x128.Idx → α)
    (c1 : S1x128x128.ShapeCasts S1x128x128) (c2 : S1x128x128.ShapeCasts S1x128x128x1)
    (c3 : S1x128x128x1.ShapeCasts S1x128x128x1) (b4 : S1x128x128x1.Broadcasts S1x128x128x4)
    (c5 : S1x128x128x4.ShapeCasts S1x128x512) (c6 : S1x128x512.ShapeCasts S1x128x1x512)
    (c7 : S1x128x1x512.ShapeCasts S1x128x1x512) (b8 : S1x128x1x512.Broadcasts S1x128x4x512)
    (c9 : S1x128x4x512.ShapeCasts S1x512x512) (j : S1x512x512.Idx) :
    shapeCast S1x512x512 (broadcastTo S1x128x4x512 (shapeCast S1x128x1x512 (shapeCast S1x128x1x512
      (shapeCast S1x128x512 (broadcastTo S1x128x128x4 (shapeCast S1x128x128x1 (shapeCast S1x128x128x1
        (shapeCast S1x128x128 x c1) c2) c3) b4) c5) c6) c7) b8) c9 j
      = x (Cert.Upsample.coarse 1 j) := by
  have h0 : (j 0).val < 1 := (j 0).isLt
  have h1 : (j 1).val < 512 := (j 1).isLt
  have h2 : (j 2).val < 512 := (j 2).isLt
  -- rows unfolded: row hh is copy hh % 4 of coarse row hh / 4
  refine (shapeCast_apply _ c9 j
    (ix4 (n0 := 1) (n1 := 128) (n2 := 4) (n3 := 512) ⟨(j 0).val, h0⟩ ⟨(j 1).val / 4, by omega⟩ ⟨(j 1).val % 4, by omega⟩ ⟨(j 2).val, h2⟩) ?_).trans ?_
  · rewrite [Shape.rowMajor_val_four, Shape.rowMajor_val_three]
    show (((j 0).val * 128 + (j 1).val / 4) * 4 + (j 1).val % 4) * 512 + (j 2).val = ((j 0).val * 512 + (j 1).val) * 512 + (j 2).val
    omega
  -- the copy number is forgotten
  refine (broadcastTo_apply _ b8 _
    (ix4 (n0 := 1) (n1 := 128) (n2 := 1) (n3 := 512) ⟨(j 0).val, h0⟩ ⟨(j 1).val / 4, by omega⟩ ⟨0, Nat.one_pos⟩ ⟨(j 2).val, h2⟩) ?_).trans ?_
  · intro a
    match a with
    | ⟨0, _⟩ => show (j 0).val = if (1 : Nat) = 1 then 0 else _; rw [if_pos rfl]; omega
    | ⟨1, _⟩ => show (j 1).val / 4 = if (128 : Nat) = 1 then 0 else (j 1).val / 4; rw [if_neg (by decide)]
    | ⟨2, _⟩ => show (0 : Nat) = if (1 : Nat) = 1 then 0 else _; rw [if_pos rfl]
    | ⟨3, _⟩ => show (j 2).val = if (512 : Nat) = 1 then 0 else (j 2).val; rw [if_neg (by decide)]
  rw [shapeCast_self _ c7]
  -- the unit axis after the rows is dropped
  refine (shapeCast_apply _ c6 _
    (ix3 (n0 := 1) (n1 := 128) (n2 := 512) ⟨(j 0).val, h0⟩ ⟨(j 1).val / 4, by omega⟩ ⟨(j 2).val, h2⟩) ?_).trans ?_
  · rewrite [Shape.rowMajor_val_three, Shape.rowMajor_val_four]
    show ((j 0).val * 128 + (j 1).val / 4) * 512 + (j 2).val = (((j 0).val * 128 + (j 1).val / 4) * 1 + 0) * 512 + (j 2).val
    omega
  -- columns unfolded: column ww is copy ww % 4 of coarse column ww / 4
  refine (shapeCast_apply _ c5 _
    (ix4 (n0 := 1) (n1 := 128) (n2 := 128) (n3 := 4) ⟨(j 0).val, h0⟩ ⟨(j 1).val / 4, by omega⟩ ⟨(j 2).val / 4, by omega⟩ ⟨(j 2).val % 4, by omega⟩) ?_).trans ?_
  · rewrite [Shape.rowMajor_val_four, Shape.rowMajor_val_three]
    show (((j 0).val * 128 + (j 1).val / 4) * 128 + (j 2).val / 4) * 4 + (j 2).val % 4 = ((j 0).val * 128 + (j 1).val / 4) * 512 + (j 2).val
    omega
  -- the copy number is forgotten
  refine (broadcastTo_apply _ b4 _
    (ix4 (n0 := 1) (n1 := 128) (n2 := 128) (n3 := 1) ⟨(j 0).val, h0⟩ ⟨(j 1).val / 4, by omega⟩ ⟨(j 2).val / 4, by omega⟩ ⟨0, Nat.one_pos⟩) ?_).trans ?_
  · intro a
    match a with
    | ⟨0, _⟩ => show (j 0).val = if (1 : Nat) = 1 then 0 else _; rw [if_pos rfl]; omega
    | ⟨1, _⟩ => show (j 1).val / 4 = if (128 : Nat) = 1 then 0 else (j 1).val / 4; rw [if_neg (by decide)]
    | ⟨2, _⟩ => show (j 2).val / 4 = if (128 : Nat) = 1 then 0 else (j 2).val / 4; rw [if_neg (by decide)]
    | ⟨3, _⟩ => show (0 : Nat) = if (1 : Nat) = 1 then 0 else _; rw [if_pos rfl]
  rw [shapeCast_self _ c3]
  -- the trailing unit axis is dropped
  refine (shapeCast_apply _ c2 _ (Cert.Upsample.coarse 1 j) ?_).trans ?_
  · rewrite [Shape.rowMajor_val_three, Shape.rowMajor_val_four]
    show ((j 0).val * 128 + (j 1).val / 4) * 128 + (j 2).val / 4 = (((j 0).val * 128 + (j 1).val / 4) * 128 + (j 2).val / 4) * 1 + 0
    omega
  rw [shapeCast_self _ c1]

variable {F : FTy → Type} [FloatOps F]

/-- THE BODY'S STORED VALUE: the loaded plane blown up cell by cell and scaled — `Cert.Upsample.upStack` of a
    stack of one plane. -/
theorem stored_eq (x0 : Vec F S1x128x128 .f32) : k0_pay1 x0 = Cert.Upsample.upStack 1 x0 := by
  funext j
  unfold k0_pay1 Cert.Upsample.upStack
  exact congrArg (fun v => FloatOps.mulf v (FloatOps.ofBits .f32 0x3E800000#32))
    (layout_apply x0 _ _ _ _ _ _ _ _ _ j)

end Cert.KernelIdeal.Body

end
-- ==== Proof.Blocks.lean ====
/-
  From grid points to the whole array.

  The launch has 384 grid points; point t loads plane t of the 384 × 128 × 128 stack and writes back picture t of the
  384 × 512 × 512 stack (both index maps are (t, 0, 0), and a block is one whole plane, resp. one whole picture).
  The body turns the loaded plane into `upStack 1` of it, and the coarse cell of a fine cell lies in the same plane,
  so what point t writes back is picture t of `upStack 384` of the stack the launch found.  Every picture index
  belongs to exactly the point of its own number, so after the last point the output array IS `upStack 384` of the
  input stack.
-/
import proofs.«108321_j34308198761077_2_alg».proof.Proof.Gen.KernelIdeal.Frame
import proofs.«108321_j34308198761077_2_alg».proof.Proof.Payload
import Idealize.ShloMosaic.Lib.Pipeline.Value

noncomputable section

namespace Cert.KernelIdeal.Stack

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- Both windows sit at block (t, 0, 0) at grid point t. -/
theorem maps_at : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is picture `t` of the blown-up stack. -/
theorem flushed_eq (c : Dev nD) (t : Fin cfg0.N) :
    (dats m 0 c).flushed 1 t = ((cfg0.win 1).blk t).view.read (Elt F) (Cert.Upsample.upStack 384 (V m c main_v0)) := by
  show (cfg0.win 1).cut (grid0.coords t) ((dats m 0 c).after 1 t) = _
  rw [after0_1]
  unfold out0_1
  rw [View.canon_unit_zero zero3]
  simp only [View.ld_unit_zero (S := S1x128x128) zero3]
  rw [Cert.KernelIdeal.Body.stored_eq]
  obtain ⟨e0, e1, e2, e3, e4, e5⟩ := maps_at t
  funext j
  have hj0 : (j 0).val < 1 := (j 0).isLt
  have hj1 : (j 1).val < 512 := (j 1).isLt
  have hj2 : (j 2).val < 512 := (j 2).isLt
  show FloatOps.mulf (V m c main_v0 (((cfg0.win 0).blk t).view.emb (Cert.Upsample.coarse 1 j))) Cert.Upsample.quarter
    = FloatOps.mulf (V m c main_v0 (Cert.Upsample.coarse 384 (((cfg0.win 1).blk t).view.emb j))) Cert.Upsample.quarter
  refine congrArg (fun i => FloatOps.mulf (V m c main_v0 i) Cert.Upsample.quarter) ?_
  funext a; apply Fin.ext
  match a with
  | ⟨0, _⟩ => show win0_0.index t (0 : Fin 3) * 1 + 1 * (j 0).val = win0_1.index t (0 : Fin 3) * 1 + 1 * (j 0).val; omega
  | ⟨1, _⟩ => show win0_0.index t (1 : Fin 3) * 128 + 1 * ((j 1).val / 4) = (win0_1.index t (1 : Fin 3) * 512 + 1 * (j 1).val) / 4; omega
  | ⟨2, _⟩ => show win0_0.index t (2 : Fin 3) * 128 + 1 * ((j 2).val / 4) = (win0_1.index t (2 : Fin 3) * 512 + 1 * (j 2).val) / 4; omega

/-- An index of the output array is in point `t`'s block iff each coordinate is in the block's range on its axis. -/
theorem mem_blk (t : Fin cfg0.N) (i : S384x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

/-- Every index of the output array lies in the block of the point of its picture's number. -/
theorem covered (i : S384x512x512.Idx) :
    ∃ t : Fin cfg0.N, (cfg0.win 1).flush t = true ∧ i ∈ ((cfg0.win 1).blk t).view.set := by
  have hi0 : (i 0).val < 384 := (i 0).isLt
  have hi1 : (i 1).val < 512 := (i 1).isLt
  have hi2 : (i 2).val < 512 := (i 2).isLt
  have hN : grid0.N = 384 := N_0
  refine ⟨⟨(i 0).val, by show (i 0).val < grid0.N; omega⟩, flush0_1 _, ?_⟩
  rw [mem_blk]
  obtain ⟨e0, e1, e2, e3, e4, e5⟩ := maps_at ⟨(i 0).val, by show (i 0).val < grid0.N; omega⟩
  intro a
  match a with
  | ⟨0, _⟩ => show win0_1.index _ (0 : Fin 3) * 1 ≤ (i 0).val ∧ (i 0).val < win0_1.index _ (0 : Fin 3) * 1 + 1; rw [e3]; show (i 0).val * 1 ≤ (i 0).val ∧ (i 0).val < (i 0).val * 1 + 1; omega
  | ⟨1, _⟩ => show win0_1.index _ (1 : Fin 3) * 512 ≤ (i 1).val ∧ (i 1).val < win0_1.index _ (1 : Fin 3) * 512 + 512; rw [e4]; omega
  | ⟨2, _⟩ => show win0_1.index _ (2 : Fin 3) * 512 ≤ (i 2).val ∧ (i 2).val < win0_1.index _ (2 : Fin 3) * 512 + 512; rw [e5]; omega

/-- THE OUTPUT ARRAY after the last grid point: the blown-up stack. -/
theorem final (c : Dev nD) : (dats m 0 c).arrAt 1 cfg0.N = Cert.Upsample.upStack 384 (V m c main_v0) :=
  (dats m 0 c).arrAt_eq_of_cover 1 (Cert.Upsample.upStack 384 (V m c main_v0)) (fun t _ => flushed_eq m c t) covered

end Cert.KernelIdeal.Stack

end
-- ==== Proof.Ends.lean ====
/-
  The two host lines around the launch.

  Before the launch the flat rows are reshaped to the stack of 384 planes; after it the stack of 384 pictures is
  reshaped to 128 × 3 pictures.  Neither line computes anything: each re-reads the same row-major sequence under
  another shape.
-/
import proofs.«108321_j34308198761077_2_alg».proof.Proof.Gen.KernelIdeal.Frame
import Idealize.ShloMosaic.Lib.StableHlo.Run

noncomputable section

namespace Cert.KernelIdeal.Ends

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The stack the launch finds is the argument's rows, reshaped. -/
theorem entry_stack (c : Dev nD) :
    (V m c main_v0 : S384x128x128.Idx → Elt F .f32)
      = shapeCast S384x128x128 (m ((c : Thread nD τ).loc main_arg0)) shapeCasts_S128x49152_S384x128x128 := by
  show StableHlo.after hostOps0 (fun b => m (c, b)) (Proc.devRef .tc main_v0) = _
  after_results
  rfl

/-- The program's result is the launch's output array, reshaped. -/
theorem exit_result (c : Dev nD) :
    (Pipeline.afterTail₀ cfgs (dats m) 0 (V0 m) [hostOps1] c main_v2 : S128x3x512x512.Idx → Elt F .f32)
      = shapeCast S128x3x512x512 ((dats m 0 c).arrAt 1 cfg0.N) shapeCasts_S384x512x512_S128x3x512x512 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 1
  exact (congrArg (fun A : S384x512x512.Idx → Elt F .f32 => shapeCast S128x3x512x512 A shapeCasts_S384x512x512_S128x3x512x512) e)

end Cert.KernelIdeal.Ends

end
-- ==== Proof.KernelRun.lean ====
/-
  The idealized kernel's run, read as a value.

  Reshape the rows to a stack of planes, blow every plane up at its own grid point, reshape the stack of pictures to
  (batch, channel): by the three files this one imports the program's result array is `spread` of its argument,
  and the argument is left as it was.
-/
import proofs.«108321_j34308198761077_2_alg».proof.Proof.Blocks
import proofs.«108321_j34308198761077_2_alg».proof.Proof.Ends

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the lines after the launch leave in the result array: `spread` of the argument. -/
theorem result_eq (c : Dev nD) :
    (Pipeline.afterTail₀ cfgs (dats m) 0 (V0 m) [hostOps1] c main_v2 : S128x3x512x512.Idx → Elt F .f32)
      = Cert.Upsample.spread (m ((c : Thread nD τ).loc main_arg0)) := by
  rw [Cert.KernelIdeal.Ends.exit_result, Cert.KernelIdeal.Stack.final, Cert.KernelIdeal.Ends.entry_stack]
  exact Cert.Upsample.regroup_upStack _ _ _

/-- Every weakly fair execution of the idealized kernel's program terminates with the result array at `spread` of the
    argument and the argument unchanged. -/
theorem run : θ_run defs (onTc (τ := τ) (main (F := F))) ⟨m, fun _ => 0, ρ⟩ fun r => ∀ c : Dev nD,
      r.2.mem ((c : Thread nD τ).loc main_v2) = Cert.Upsample.spread (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.RefValue.lean ====
/-
  The reference's result is `spread` of its argument.

  The reference reads the flat rows as (batch, channel, 128, 128), repeats every row four times (a new axis of
  extent 4 after the rows, folded into them) and then every column four times (a new trailing axis of extent 4,
  folded into the columns), and multiplies by the scale.  Followed backwards from a result cell (b, c, hh, ww):
  the column fold came from (b, c, hh, ww / 4, ww % 4), the broadcast forgets ww % 4; the row fold came from
  (b, c, hh / 4, hh % 4, ww / 4), the broadcast forgets hh % 4; and cell (b, c, hh / 4, ww / 4) of the four-axis
  view is entry c·16384 + (hh / 4)·128 + ww / 4 of row b.
-/
import proofs.«108321_j34308198761077_2_alg».proof.Proof.Gen.ReferenceIdeal.Read
import proofs.«108321_j34308198761077_2_alg».proof.Proof.Upsample
import Idealize.ShloMosaic.Lib.Pipeline.Value
import Idealize.ShloMosaic.Lib.ValueIdx

noncomputable section

namespace Cert.ReferenceIdeal.Repeat

open Cert.ReferenceIdeal Cert.ReferenceIdeal.Gen Cert.ReferenceIdeal.Read Idealize.ShloMosaic Idealize.ShloMosaic.ValueIdx

variable {F : FTy → Type} [FloatOps F]

/-- The repeated picture, before the scale, at a result cell: the argument's entry behind that cell. -/
theorem repeated_apply (z : (⟨S128x49152, .f32⟩ : BufTy).Contents (Elt F)) (i : S128x3x512x512.Idx) :
    val_main_v4 (F := F) z i = z (Cert.Upsample.origin i) := by
  have h0 : (i 0).val < 128 := (i 0).isLt
  have h1 : (i 1).val < 3 := (i 1).isLt
  have h2 : (i 2).val < 512 := (i 2).isLt
  have h3 : (i 3).val < 512 := (i 3).isLt
  -- columns unfolded: column ww is copy ww % 4 of coarse column ww / 4
  unfold val_main_v4
  refine (shapeCast_apply _ shapeCasts_S128x3x512x128x4_S128x3x512x512 i
    (ix5 (n0 := 128) (n1 := 3) (n2 := 512) (n3 := 128) (n4 := 4) ⟨(i 0).val, h0⟩ ⟨(i 1).val, h1⟩ ⟨(i 2).val, h2⟩ ⟨(i 3).val / 4, by omega⟩ ⟨(i 3).val % 4, by omega⟩) ?_).trans ?_
  · rewrite [Shape.rowMajor_val_five, Shape.rowMajor_val_four]
    show ((((i 0).val * 3 + (i 1).val) * 512 + (i 2).val) * 128 + (i 3).val / 4) * 4 + (i 3).val % 4
      = (((i 0).val * 3 + (i 1).val) * 512 + (i 2).val) * 512 + (i 3).val
    omega
  -- the copy number is forgotten
  unfold val_main_v3
  refine (broadcastInDim_apply _ bcast_S128x3x512x128_S128x3x512x128x4_0_1_2_3 _ _
    (ix4 (n0 := 128) (n1 := 3) (n2 := 512) (n3 := 128) ⟨(i 0).val, h0⟩ ⟨(i 1).val, h1⟩ ⟨(i 2).val, h2⟩ ⟨(i 3).val / 4, by omega⟩) ?_).trans ?_
  · intro a
    match a with
    | ⟨0, _⟩ => show (i 0).val = if (128 : Nat) = 1 then 0 else (i 0).val; rw [if_neg (by decide)]
    | ⟨1, _⟩ => show (i 1).val = if (3 : Nat) = 1 then 0 else (i 1).val; rw [if_neg (by decide)]
    | ⟨2, _⟩ => show (i 2).val = if (512 : Nat) = 1 then 0 else (i 2).val; rw [if_neg (by decide)]
    | ⟨3, _⟩ => show (i 3).val / 4 = if (128 : Nat) = 1 then 0 else (i 3).val / 4; rw [if_neg (by decide)]
  -- rows unfolded: row hh is copy hh % 4 of coarse row hh / 4
  unfold val_main_v2
  refine (shapeCast_apply _ shapeCasts_S128x3x128x4x128_S128x3x512x128 _
    (ix5 (n0 := 128) (n1 := 3) (n2 := 128) (n3 := 4) (n4 := 128) ⟨(i 0).val, h0⟩ ⟨(i 1).val, h1⟩ ⟨(i 2).val / 4, by omega⟩ ⟨(i 2).val % 4, by omega⟩ ⟨(i 3).val / 4, by omega⟩) ?_).trans ?_
  · rewrite [Shape.rowMajor_val_five, Shape.rowMajor_val_four]
    show ((((i 0).val * 3 + (i 1).val) * 128 + (i 2).val / 4) * 4 + (i 2).val % 4) * 128 + (i 3).val / 4
      = (((i 0).val * 3 + (i 1).val) * 512 + (i 2).val) * 128 + (i 3).val / 4
    omega
  -- the copy number is forgotten
  unfold val_main_v1
  refine (broadcastInDim_apply _ bcast_S128x3x128x128_S128x3x128x4x128_0_1_2_4 _ _
    (ix4 (n0 := 128) (n1 := 3) (n2 := 128) (n3 := 128) ⟨(i 0).val, h0⟩ ⟨(i 1).val, h1⟩ ⟨(i 2).val / 4, by omega⟩ ⟨(i 3).val / 4, by omega⟩) ?_).trans ?_
  · intro a
    match a with
    | ⟨0, _⟩ => show (i 0).val = if (128 : Nat) = 1 then 0 else (i 0).val; rw [if_neg (by decide)]
    | ⟨1, _⟩ => show (i 1).val = if (3 : Nat) = 1 then 0 else (i 1).val; rw [if_neg (by decide)]
    | ⟨2, _⟩ => show (i 2).val / 4 = if (128 : Nat) = 1 then 0 else (i 2).val / 4; rw [if_neg (by decide)]
    | ⟨3, _⟩ => show (i 3).val / 4 = if (128 : Nat) = 1 then 0 else (i 3).val / 4; rw [if_neg (by decide)]
  -- the four-axis view of the flat rows
  unfold val_main_v0
  refine shapeCast_apply z shapeCasts_S128x49152_S128x3x128x128 _ (Cert.Upsample.origin i) ?_
  rewrite [Shape.rowMajor_val_two, Shape.rowMajor_val_four]
  show (i 0).val * 49152 + ((i 1).val * 16384 + (i 2).val / 4 * 128 + (i 3).val / 4)
    = (((i 0).val * 3 + (i 1).val) * 128 + (i 2).val / 4) * 128 + (i 3).val / 4
  omega

/-- THE REFERENCE'S RESULT, as a function of its argument: `spread`. -/
theorem result_eq (z : (⟨S128x49152, .f32⟩ : BufTy).Contents (Elt F)) :
    val_main_v6 (F := F) z = Cert.Upsample.spread z := by
  funext i
  rw [val_main_v6_apply, val_main_v5_apply, val_main_cst_apply, repeated_apply]
  rfl

end Cert.ReferenceIdeal.Repeat

end
-- ==== Proof.lean ====
/-
  The kernel and its reference compute one function.

  Both programs take 128 rows of 49152 numbers, read each row as three 128 × 128 planes, blow every plane up to
  512 × 512 by filling each 4 × 4 square of fine cells with its coarse cell, and multiply by a quarter (the same f32
  word on both sides).  The kernel does it one plane per grid point, repeating columns and then rows by reshapes
  and broadcasts inside the block; the reference repeats rows and then columns on the whole array.  Either way the
  result at (b, c, hh, ww) is the argument's entry (b, c·16384 + (hh / 4)·128 + ww / 4) times the scale:
  `Cert.Upsample.spread`.  The two results are that one product of that one entry, so they agree on the extended
  reals with no law of arithmetic used, and the finiteness of the inputs is never opened.

  The idealization pass rewrote nothing, so its conjunct is `True`; the three frames are the launch's frame run
  (kernel, idealized kernel) and the reference's run with the result dropped.
-/
import proofs.«108321_j34308198761077_2_alg».proof.Defs
import proofs.«108321_j34308198761077_2_alg».proof.Proof.Gen.Kernel
import proofs.«108321_j34308198761077_2_alg».proof.Proof.Gen.Kernel.Skeleton
import proofs.«108321_j34308198761077_2_alg».proof.Proof.Gen.Kernel.Launch
import proofs.«108321_j34308198761077_2_alg».proof.Proof.Gen.Kernel.Points
import proofs.«108321_j34308198761077_2_alg».proof.Proof.Gen.Kernel.Frame
import proofs.«108321_j34308198761077_2_alg».proof.Proof.Gen.KernelIdeal
import proofs.«108321_j34308198761077_2_alg».proof.Proof.Gen.KernelIdeal.Skeleton
import proofs.«108321_j34308198761077_2_alg».proof.Proof.Gen.KernelIdeal.Launch
import proofs.«108321_j34308198761077_2_alg».proof.Proof.Gen.KernelIdeal.Points
import proofs.«108321_j34308198761077_2_alg».proof.Proof.Gen.KernelIdeal.Frame
import proofs.«108321_j34308198761077_2_alg».proof.Proof.Gen.ReferenceIdeal
import proofs.«108321_j34308198761077_2_alg».proof.Proof.Gen.Pre_finite_inputs
import proofs.«108321_j34308198761077_2_alg».proof.Proof.Gen.ReferenceIdeal.Run
import proofs.«108321_j34308198761077_2_alg».proof.Proof.Gen.ReferenceIdeal.Read
import proofs.«108321_j34308198761077_2_alg».proof.Proof.KernelRun
import proofs.«108321_j34308198761077_2_alg».proof.Proof.RefValue
import Idealize.ShloMosaic.Adequacy
import Idealize.ShloMosaic.Init

noncomputable section

namespace Cert.Proof

open Idealize.ShloMosaic Idealize.SL.Sem Cert.Kernel

/-- The word-level kernel runs and leaves its argument alone. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the argument both programs end with the result array at `spread` of it. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Repeat.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
